-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S640000x128 : Shape := ⟨2, ![640000, 128]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 64
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S50000, .f32⟩
  | .hbm, ⟨16, _⟩ => ⟨S640000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x128, .bf16⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .bf16⟩
  | .hbm, ⟨34, _⟩ => ⟨S640000x128, .f32⟩
  | .hbm, ⟨35, _⟩ => ⟨S_, .f32⟩
  | .hbm, ⟨36, _⟩ => ⟨S50000x128, .f32⟩
  | .hbm, ⟨37, _⟩ => ⟨S640000x1, .i32⟩
  | .hbm, ⟨38, _⟩ => ⟨S50000x128, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .bf16⟩
  | .hbm, ⟨45, _⟩ => ⟨S_, .i32⟩
  | .hbm, ⟨46, _⟩ => ⟨S640000, .i32⟩
  | .hbm, ⟨47, _⟩ => ⟨S640000, .i1⟩
  | .hbm, ⟨48, _⟩ => ⟨S_, .i32⟩
  | .hbm, ⟨49, _⟩ => ⟨S640000, .i32⟩
  | .hbm, ⟨50, _⟩ => ⟨S640000, .i32⟩
  | .hbm, ⟨51, _⟩ => ⟨S640000, .i32⟩
  | .hbm, ⟨52, _⟩ => ⟨S640000x1, .i32⟩
  | .hbm, ⟨53, _⟩ => ⟨S640000x128, .bf16⟩
  | .hbm, ⟨54, _⟩ => ⟨S640000x128, .f32⟩
  | .hbm, ⟨55, _⟩ => ⟨S_, .f32⟩
  | .hbm, ⟨56, _⟩ => ⟨S50000x128, .f32⟩
  | .hbm, ⟨57, _⟩ => ⟨S640000x1, .i32⟩
  | .hbm, ⟨58, _⟩ => ⟨S50000x128, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bitsLt_bf16_f32 : FTy.bits .bf16 < FTy.bits .f32
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S50000x128, .f32⟩
  | .hbm, ⟨23, _⟩ => ⟨S640000x1, .i32⟩
  | .hbm, ⟨24, _⟩ => ⟨S50000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S50000, .f32⟩
  | .hbm, ⟨29, _⟩ => ⟨S640000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S_, .f32⟩
  | .hbm, ⟨56, _⟩ => ⟨S50000x128, .f32⟩
  | .hbm, ⟨57, _⟩ => ⟨S640000x1, .i32⟩
  | .hbm, ⟨58, _⟩ => ⟨S50000x128, .f32⟩
  | .hbm, ⟨59, _⟩ => ⟨S_, .f32⟩
  | .hbm, ⟨60, _⟩ => ⟨S640000, .f32⟩
  | .hbm, ⟨61, _⟩ => ⟨S_, .f32⟩
  | .hbm, ⟨62, _⟩ => ⟨S50000, .f32⟩
  | .hbm, ⟨63, _⟩ => ⟨S640000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run, with the result array named.

  The program is four segments: the host operations that build the first layer's mean-aggregated
  features, the first layer's kernel launch over ten row tiles, the host operations that aggregate
  the first layer's output, and the second layer's launch. The buffer contents at the four boundaries
  are a fold from the launch memory, and after the last segment every unscoped buffer holds the last
  boundary's contents. Read at the arguments that says they are unchanged; read at the second launch's
  output buffer it says the result is that boundary's contents there, which is what a value claim needs.
-/
import proofs.«122318_j56813827392143_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the
    last boundary's contents, and each argument array as launched. -/
theorem run_out : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.LayerSpec.lean ====
/-
  One GraphSAGE combine step, as a function of whole arrays.

  Given the mean-aggregated neighbour features `mean` and the node features `x`, both [n, 128], two weight
  matrices [128, 128] and a bias row [1, 128], entry (p, q) of the step is

      (Σ_k mean[p, k] · wl[k, q]  +  Σ_k x[p, k] · wr[k, q])  +  b[0, q]

  over the extended reals. Row p of the result depends only on row p of `mean` and of `x`, so a tile of rows of
  the result is the same expression of the same tile of rows of the operands: that is what lets a kernel that works
  tile by tile agree with the whole-array formula.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- Entry (p, q) of the combine step. -/
def combineAt {n : Nat} (mean x : (⟨2, ![n, 128]⟩ : Shape).Idx → EReal) (wl wr : (⟨2, ![128, 128]⟩ : Shape).Idx → EReal)
    (b : (⟨2, ![1, 128]⟩ : Shape).Idx → EReal) (p : Fin n) (q : Fin 128) : EReal :=
  (∑ k : Fin 128, mean (ix2 p k) * wl (ix2 k q) + ∑ k : Fin 128, x (ix2 p k) * wr (ix2 k q)) + b (ix2 (0 : Fin 1) q)

/-- The combine step as an array. -/
def combine {n : Nat} (mean x : (⟨2, ![n, 128]⟩ : Shape).Idx → EReal) (wl wr : (⟨2, ![128, 128]⟩ : Shape).Idx → EReal)
    (b : (⟨2, ![1, 128]⟩ : Shape).Idx → EReal) : (⟨2, ![n, 128]⟩ : Shape).Idx → EReal :=
  fun i => combineAt mean x wl wr b (i 0) (i 1)

/-- The combine step followed by the rectifier max(·, 0). -/
def combineRelu {n : Nat} (mean x : (⟨2, ![n, 128]⟩ : Shape).Idx → EReal) (wl wr : (⟨2, ![128, 128]⟩ : Shape).Idx → EReal)
    (b : (⟨2, ![1, 128]⟩ : Shape).Idx → EReal) : (⟨2, ![n, 128]⟩ : Shape).Idx → EReal :=
  fun i => max (combineAt mean x wl wr b (i 0) (i 1)) 0

/-- A tile of rows. If the tile's two row operands are the arrays read through a map `e` of tile indices to array
    indices that keeps the column and sends equal rows to equal rows, then entry (p, q) of the step on the tile is
    the step on the arrays at `e (p, q)`: the sums over k run along a row, and `e` moves whole rows. -/
theorem combineAt_tile {n t : Nat} (A0 A1 : (⟨2, ![n, 128]⟩ : Shape).Idx → EReal)
    (x0 x1 : (⟨2, ![t, 128]⟩ : Shape).Idx → EReal) (wl wr : (⟨2, ![128, 128]⟩ : Shape).Idx → EReal)
    (b : (⟨2, ![1, 128]⟩ : Shape).Idx → EReal)
    (e : (⟨2, ![t, 128]⟩ : Shape).Idx → (⟨2, ![n, 128]⟩ : Shape).Idx)
    (hcol : ∀ y, ((e y) 1).val = (y 1).val)
    (hrow : ∀ y y', (y 0).val = (y' 0).val → ((e y) 0).val = ((e y') 0).val)
    (h0 : ∀ y, x0 y = A0 (e y)) (h1 : ∀ y, x1 y = A1 (e y)) (p : Fin t) (q : Fin 128) :
    combineAt x0 x1 wl wr b p q = combineAt A0 A1 wl wr b ((e (ix2 p q)) 0) ((e (ix2 p q)) 1) := by
  have hq : ((e (ix2 p q)) 1 : Fin 128) = q := Fin.ext (hcol (ix2 p q))
  have hk : ∀ k : Fin 128, e (ix2 p k) = ix2 ((e (ix2 p q)) 0) k := fun k => funext fun a => by
    match a with
    | ⟨0, _⟩ => exact Fin.ext (hrow (ix2 p k) (ix2 p q) rfl)
    | ⟨1, _⟩ => exact Fin.ext (hcol (ix2 p k))
  unfold combineAt
  rw [hq]
  -- name the row once, so that the row equation no longer mentions `e` on its right
  generalize (e (ix2 p q)) 0 = r at hk ⊢
  simp only [h0, h1, hk]
  rfl

end Cert.Sage

end
-- ==== Proof.LibIdealRecip.lean ====
/-
  Dividing by c against multiplying by the reciprocal 1 / c, on the extended reals.

  The quotient x / c is x · c⁻¹ whenever c ≠ 0, where the inverse of either infinity is 0. So for EVERY extended real
  a — finite or not — and every c ≠ 0 — finite or not — a · (1 / c) = a · (1 · c⁻¹) = a · c⁻¹ = a / c. No finiteness
  of a is needed, because the law only re-associates a product with the factor 1. In particular it holds for
  c = max x 1, which is at least 1 and therefore never zero, whatever x is.

  The array form: an array scaled entry by entry by a broadcast reciprocal is the array divided entry by entry by the
  broadcast divisor, for any broadcast that reads its operand at an index computed from the result's index.
-/
import Idealize.ShloMosaic.PureOps.Ideal
import Idealize.ShloMosaic.Lib.ValueIdx

namespace Idealize.ShloMosaic.IdealRecip

open Idealize.ShloMosaic

/-- a · (1 / c) = a / c for every extended real a, whenever c ≠ 0 (c = ±∞ included: both sides are a · 0). -/
theorem mul_div_one (a c : EReal) (hc : c ≠ 0) : a * Ideal.div 1 c = Ideal.div a c := by
  unfold Ideal.div
  rw [if_neg hc, if_neg hc, one_mul]

/-- max x 1 is at least 1, so it is not zero, for every extended real x. -/
theorem max_one_ne_zero (x : EReal) : max x 1 ≠ 0 := by
  have h01 : (0 : EReal) < 1 := by exact_mod_cast (zero_lt_one : (0 : ℝ) < 1)
  exact ne_of_gt (lt_of_lt_of_le h01 (le_max_right x 1))

/-- An array times a broadcast reciprocal is the array over the broadcast divisor. `sp` is any broadcast that reads
    its operand at `g i`; `u` is an all-ones array; `c` has no zero entry. -/
theorem mulf_recip_eq_divf {s t : Shape} {φ : FTy} (A : FVec Ideal s φ) (c u : FVec Ideal t φ)
    (sp : FVec Ideal t φ → FVec Ideal s φ) (g : s.Idx → t.Idx) (hsp : ∀ v i, sp v i = v (g i))
    (hu : ∀ j, u j = 1) (hc : ∀ j, c j ≠ 0) :
    mulf A (sp (Host.divf u c)) = Host.divf A (sp c) := by
  funext i
  show A i * sp (Host.divf u c) i = Ideal.div (A i) (sp c i)
  rw [hsp, hsp]
  show A i * Ideal.div (u (g i)) (c (g i)) = _
  rw [hu]
  exact mul_div_one _ _ (hc _)

end Idealize.ShloMosaic.IdealRecip
-- ==== Proof.HostSpec.lean ====
/-
  The host side of the network, as functions of whole arrays.

  Before each launch the host computes the mean of every node's in-neighbours' features. From the edge list
  [2, 640000] it takes the source row and the destination row; a negative source index is wrapped by adding the node
  count; the features are gathered at the sources, and the gathered rows are summed into their destinations
  (a scatter-add into zeros). The in-degree is the same scatter-add of ones; it is clamped below by 1, and its
  reciprocal, broadcast along the feature axis, scales the neighbour sum. The gather runs on features narrowed to
  bf16 and widens them again, which is the identity on the extended reals.

  `meanOf` takes the source row, the destination row and the reciprocal degree as parameters, so that the same function
  describes both layers: the first reads them off the edge list directly, the second reads the buffers the first
  stretch of host operations left. `network` is the whole two-layer network in the kernel's arrangement.

  Two facts are proved here. Scaling by the broadcast reciprocal 1 / max(deg, 1) is dividing by the broadcast
  max(deg, 1): the divisor is at least 1, hence not zero, and then a · (1 / c) = a / c for every extended real a. And
  the bias, reshaped from [128] to a row [1, 128], reads at (0, q) the bias at q.
-/
import proofs.«122318_j56813827392143_2_alg».proof.Proof.Gen.KernelIdeal
import proofs.«122318_j56813827392143_2_alg».proof.Proof.LayerSpec
import proofs.«122318_j56813827392143_2_alg».proof.Proof.LibIdealRecip
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.HostSpec

open Cert.KernelIdeal Cert.KernelIdeal.Facts₀ Cert.Sage
open Idealize.ShloMosaic Idealize.ShloMosaic.ValueIdx

section AnyInstance
variable {F : FTy → Type} [FloatOps F]

/-- The source node of each edge: row 0 of the edge list. -/
def srcOf (ei : (⟨S2x640000, .i32⟩ : BufTy).Contents (Elt F)) : (⟨S640000, .i32⟩ : BufTy).Contents (Elt F) :=
  shapeCast S640000 (extractStridedSlice S1x640000 ![0, 0] ei slices_S2x640000_S1x640000_0_0) shapeCasts_S1x640000_S640000

/-- The destination node of each edge: row 1 of the edge list. -/
def dstOf (ei : (⟨S2x640000, .i32⟩ : BufTy).Contents (Elt F)) : (⟨S640000, .i32⟩ : BufTy).Contents (Elt F) :=
  shapeCast S640000 (extractStridedSlice S1x640000 ![1, 0] ei slices_S2x640000_S1x640000_1_0) shapeCasts_S1x640000_S640000

/-- The gather's index column: a negative source index wrapped by the node count. -/
def gatherIdx (s : (⟨S640000, .i32⟩ : BufTy).Contents (Elt F)) : (⟨S640000x1, .i32⟩ : BufTy).Contents (Elt F) :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 50000#32))) s)

/-- The scatter's index column. -/
def scatterIdx (d : (⟨S640000, .i32⟩ : BufTy).Contents (Elt F)) : (⟨S640000x1, .i32⟩ : BufTy).Contents (Elt F) :=
  broadcastInDim S640000x1 ![0] bcast_S640000_S640000x1_0 d

/-- The all-ones vector over the nodes. -/
def ones : FVec F S50000 .f32 := broadcastInDim S50000 ![] bcast_S_S50000 (constant S_ .f32 0x3F800000#32)

/-- max(in-degree, 1) of every node. -/
def degreeMax1 (d : (⟨S640000, .i32⟩ : BufTy).Contents (Elt F)) : FVec F S50000 .f32 :=
  maximumf (Host.scatterAdd scatter_S50000_S640000x1_S640000_n_0_0_1 (broadcastInDim S50000 ![] bcast_S_S50000 (constant S_ .f32 0x00000000#32))
    (scatterIdx d) (broadcastInDim S640000 ![] bcast_S_S640000 (constant S_ .f32 0x3F800000#32))) ones

/-- 1 / max(in-degree, 1). -/
def recipDegree (d : (⟨S640000, .i32⟩ : BufTy).Contents (Elt F)) : FVec F S50000 .f32 := Host.divf ones (degreeMax1 d)

/-- A per-node scalar broadcast along the feature axis: [50000] → [50000, 1] → [50000, 128]. -/
def perRow (v : FVec F S50000 .f32) : FVec F S50000x128 .f32 :=
  broadcastInDim S50000x128 ![0, 1] bcast_S50000x1_S50000x128_0_1 (broadcastInDim S50000x1 ![0] bcast_S50000_S50000x1_0 v)

/-- The sum over each node's in-edges of the source's features. -/
def neighbourSum (s d : (⟨S640000, .i32⟩ : BufTy).Contents (Elt F)) (feat : FVec F S50000x128 .f32) : FVec F S50000x128 .f32 :=
  Host.scatterAdd scatter_S50000x128_S640000x1_S640000x128_1_0_0_1 (broadcastInDim S50000x128 ![] bcast_S_S50000x128 (constant S_ .f32 0x00000000#32))
    (scatterIdx d) (Host.gather gather_S50000x128_S640000x1_S640000x128_1_0_n_n_0_1_1128 feat (gatherIdx s))

/-- The same sum with the gather run on features narrowed to bf16 and widened again. -/
def neighbourSumNarrow (s d : (⟨S640000, .i32⟩ : BufTy).Contents (Elt F)) (feat : FVec F S50000x128 .f32) : FVec F S50000x128 .f32 :=
  Host.scatterAdd scatter_S50000x128_S640000x1_S640000x128_1_0_0_1 (broadcastInDim S50000x128 ![] bcast_S_S50000x128 (constant S_ .f32 0x00000000#32))
    (scatterIdx d) (extf .f32 (Host.gather gather_S50000x128_S640000x1_S640000x128_1_0_n_n_0_1_1128 (truncf .bf16 feat bitsLt_bf16_f32) (gatherIdx s)) bitsLt_bf16_f32)

/-- The kernel program's mean aggregation: the neighbour sum scaled by the broadcast `inv`. -/
def meanOf (s d : (⟨S640000, .i32⟩ : BufTy).Contents (Elt F)) (inv : FVec F S50000 .f32) (feat : FVec F S50000x128 .f32) : FVec F S50000x128 .f32 :=
  mulf (neighbourSumNarrow s d feat) (perRow inv)

/-- The bias as a row: [128] reshaped to [1, 128]. -/
def biasRow (b : FVec F S128 .f32) : FVec F S1x128 .f32 := shapeCast S1x128 b shapeCasts_S128_S1x128

end AnyInstance

/-! ## On the extended reals -/

/-- The two-layer network in the kernel program's arrangement: each layer's mean aggregation scaled by the reciprocal
    degree, then the combine step; the first layer rectified. -/
def network (x : FVec Ideal S50000x128 .f32) (ei : (⟨S2x640000, .i32⟩ : BufTy).Contents (Elt Ideal))
    (w1l : FVec Ideal S128x128 .f32) (b1 : FVec Ideal S128 .f32) (w1r w2l : FVec Ideal S128x128 .f32)
    (b2 : FVec Ideal S128 .f32) (w2r : FVec Ideal S128x128 .f32) : FVec Ideal S50000x128 .f32 :=
  combine
    (meanOf (srcOf ei) (dstOf ei) (recipDegree (dstOf ei))
      (combineRelu (meanOf (srcOf ei) (dstOf ei) (recipDegree (dstOf ei)) x) x w1l w1r (biasRow b1)))
    (combineRelu (meanOf (srcOf ei) (dstOf ei) (recipDegree (dstOf ei)) x) x w1l w1r (biasRow b1))
    w2l w2r (biasRow b2)

/-- Narrowing to bf16 before the gather and widening after it changes nothing on the extended reals. -/
theorem neighbourSumNarrow_eq (s d : (⟨S640000, .i32⟩ : BufTy).Contents (Elt Ideal)) (feat : FVec Ideal S50000x128 .f32) :
    neighbourSumNarrow (F := Ideal) s d feat = neighbourSum s d feat := rfl

/-- The per-node broadcast at (p, q) is the vector at p. -/
theorem perRow_apply (v : FVec Ideal S50000 .f32) (i : S50000x128.Idx) :
    perRow (F := Ideal) v i = v (ix1 (i 0)) := by
  unfold perRow
  rw [broadcastInDim_apply _ bcast_S50000x1_S50000x128_0_1 _ i (ix2 (i 0) (0 : Fin 1)) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])]
  exact broadcastInDim_apply _ bcast_S50000_S50000x1_0 v (ix2 (i 0) (0 : Fin 1)) (ix1 (i 0)) (fun a => match a with
    | ⟨0, _⟩ => by show (i 0).val = if (50000 : Nat) = 1 then 0 else (i 0).val; rw [if_neg (by decide)])

/-- Every entry of the all-ones vector is 1. -/
theorem ones_apply (j : S50000.Idx) : ones (F := Ideal) j = 1 := by
  unfold ones
  rw [broadcastInDim_apply _ bcast_S_S50000 _ j ix0 (fun a => a.elim0)]
  exact Ideal.ofBits_one_f32

/-- max(in-degree, 1) is never zero. -/
theorem degreeMax1_ne_zero (d : (⟨S640000, .i32⟩ : BufTy).Contents (Elt Ideal)) (j : S50000.Idx) :
    degreeMax1 (F := Ideal) d j ≠ 0 := by
  unfold degreeMax1
  rw [maximumf_apply, ones_apply]
  exact IdealRecip.max_one_ne_zero _

/-- THE LAW that joins the two programs' means: the neighbour sum scaled by the broadcast reciprocal degree is the
    neighbour sum divided by the broadcast clamped degree. -/
theorem meanOf_eq_div (s d : (⟨S640000, .i32⟩ : BufTy).Contents (Elt Ideal)) (feat : FVec Ideal S50000x128 .f32) :
    meanOf (F := Ideal) s d (recipDegree d) feat = Host.divf (neighbourSum s d feat) (perRow (degreeMax1 d)) := by
  unfold meanOf recipDegree
  rw [neighbourSumNarrow_eq]
  exact IdealRecip.mulf_recip_eq_divf (neighbourSum s d feat) (degreeMax1 d) ones perRow (fun i => ix1 (i 0))
    perRow_apply ones_apply (degreeMax1_ne_zero d)

/-- The bias row at (0, q) is the bias at q. -/
theorem biasRow_apply (b : FVec Ideal S128 .f32) (z : Fin 1) (q : Fin 128) :
    biasRow (F := Ideal) b (ix2 z q) = b (ix1 q) := by
  unfold biasRow
  exact shapeCast_apply b shapeCasts_S128_S1x128 (ix2 z q) (ix1 q) (by
    rw [Shape.rowMajor_val_one, Shape.rowMajor_val_two]
    show q.val = z.val * 128 + q.val
    have := z.isLt
    omega)

end Cert.KernelIdeal.HostSpec

end
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.KernelPayload.lean ====
/-
  What each kernel body stores, read at an entry of the tile.

  Both bodies load a [5000, 128] tile of the mean-aggregated features and of the node features, the two
  [128, 128] weight matrices and the [1, 128] bias row, narrow the four matrix operands to bf16 (the identity on the
  extended reals), multiply on the matrix unit into a zero accumulator, add the two products, and add the bias row
  broadcast down the tile. The first layer's body then takes the maximum with zero. A matrix product into a zero
  accumulator is, entry by entry, the plain sum over the contracted axis; so entry (p, q) of what is stored is the
  combine step of the loaded tiles at (p, q).
-/
import proofs.«122318_j56813827392143_2_alg».proof.Proof.Gen.KernelIdeal.Skeleton
import proofs.«122318_j56813827392143_2_alg».proof.Proof.LayerSpec
import proofs.«122318_j56813827392143_2_alg».proof.Proof.LibRank2Layout
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Cert.Sage
open Idealize.ShloMosaic Idealize.ShloMosaic.ValueIdx

/-! ## The matrix product's operand indices: output (r, c) and contraction index k read (r, k) and (k, c) -/

theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The tile's matrix product into a zero accumulator, at entry (p, q): Σ_k l[p, k] · r[k, q]. -/
theorem matmul_zero_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The two payloads -/

/-- The second layer's body stores the combine step of its loaded tiles. -/
theorem k1_pay1_apply (v0 v3 : Vec Ideal S5000x128 .f32) (v6 v8 : Vec Ideal S128x128 .f32) (v13 : Vec Ideal S1x128 .f32)
    (p : Fin 5000) (q : Fin 128) :
    k1_pay1 (F := Ideal) v0 v3 v6 v8 v13 (ix2 p q) = combineAt v0 v3 v6 v8 v13 p q := by
  unfold k1_pay1 combineAt
  simp only [addf_apply, matmul_zero_apply, truncf_apply, shapeCast_self, Rank2.bcastRow_apply]

/-- The first layer's body stores the combine step of its loaded tiles, rectified. -/
theorem k0_pay1_apply (v0 v3 : Vec Ideal S5000x128 .f32) (v5 v7 : Vec Ideal S128x128 .f32) (v12 : Vec Ideal S1x128 .f32)
    (p : Fin 5000) (q : Fin 128) :
    k0_pay1 (F := Ideal) v0 v3 v5 v7 v12 (ix2 p q) = max (combineAt v0 v3 v5 v7 v12 p q) 0 := by
  unfold k0_pay1 combineAt
  simp only [maximumf_apply, addf_apply, matmul_zero_apply, truncf_apply, shapeCast_self, Rank2.bcastRow_apply,
    broadcast_apply, Ideal.ofBits_def, Ideal.ofBits_zero_f32]

/-! ## A tile of rows against the whole arrays -/

/-- A tile of the first layer. If the two row-tiled loads are the arrays `A0`, `A1` read through a map `e` of tile indices
    to array indices that keeps the column and moves whole rows, and the weights and the bias row are loaded whole, then
    what the body stores at tile index `j` is the rectified combine step of the arrays at `e j`. -/
theorem k0_tile (A0 A1 : S50000x128.Idx → EReal) (A2 A3 : S128x128.Idx → EReal) (A4 : S1x128.Idx → EReal)
    (x0 x1 : Vec Ideal S5000x128 .f32) (x2 x3 : Vec Ideal S128x128 .f32) (x4 : Vec Ideal S1x128 .f32)
    (e : S5000x128.Idx → S50000x128.Idx)
    (hcol : ∀ y, ((e y) 1).val = (y 1).val)
    (hrow : ∀ y y', (y 0).val = (y' 0).val → ((e y) 0).val = ((e y') 0).val)
    (h0 : ∀ y, x0 y = A0 (e y)) (h1 : ∀ y, x1 y = A1 (e y)) (h2 : x2 = A2) (h3 : x3 = A3) (h4 : x4 = A4)
    (j : S5000x128.Idx) :
    k0_pay1 (F := Ideal) x0 x1 x2 x3 x4 j = combineRelu A0 A1 A2 A3 A4 (e j) := by
  obtain ⟨p, q, rfl⟩ : ∃ (p : Fin 5000) (q : Fin 128), j = ix2 p q := ⟨j 0, j 1, eq_ix2 j⟩
  subst h2 h3 h4
  rw [k0_pay1_apply]
  unfold combineRelu
  exact congrArg (max · 0) (combineAt_tile A0 A1 x0 x1 x2 x3 x4 e hcol hrow h0 h1 p q)

/-- A tile of the second layer. If the two row-tiled loads are the arrays `A0`, `A1` read through a map `e` of tile indices
    to array indices that keeps the column and moves whole rows, and the weights and the bias row are loaded whole, then
    what the body stores at tile index `j` is the combine step of the arrays at `e j`. -/
theorem k1_tile (A0 A1 : S50000x128.Idx → EReal) (A2 A3 : S128x128.Idx → EReal) (A4 : S1x128.Idx → EReal)
    (x0 x1 : Vec Ideal S5000x128 .f32) (x2 x3 : Vec Ideal S128x128 .f32) (x4 : Vec Ideal S1x128 .f32)
    (e : S5000x128.Idx → S50000x128.Idx)
    (hcol : ∀ y, ((e y) 1).val = (y 1).val)
    (hrow : ∀ y y', (y 0).val = (y' 0).val → ((e y) 0).val = ((e y') 0).val)
    (h0 : ∀ y, x0 y = A0 (e y)) (h1 : ∀ y, x1 y = A1 (e y)) (h2 : x2 = A2) (h3 : x3 = A3) (h4 : x4 = A4)
    (j : S5000x128.Idx) :
    k1_pay1 (F := Ideal) x0 x1 x2 x3 x4 j = combine A0 A1 A2 A3 A4 (e j) := by
  obtain ⟨p, q, rfl⟩ : ∃ (p : Fin 5000) (q : Fin 128), j = ix2 p q := ⟨j 0, j 1, eq_ix2 j⟩
  subst h2 h3 h4
  rw [k1_pay1_apply]
  unfold combine
  exact (combineAt_tile A0 A1 x0 x1 x2 x3 x4 e hcol hrow h0 h1 p q)

end Cert.KernelIdeal.Payload

end
-- ==== Proof.KernelTiles0.lean ====
/-
  The first layer's launch: what its output array holds once all ten row tiles are written back.

  The launch walks ten grid points. At point t the pipeline stages rows 5000·t … 5000·t + 4999 of the mean-aggregated
  features and of the node features, the two weight matrices and the bias row whole, runs the body, and writes the
  body's [5000, 128] result back to the same rows of the output. Because a row of the combine step depends only on the
  same row of the two row operands, what point t writes back is exactly rows 5000·t … of ONE whole-array function of the
  five operand arrays as the launch finds them — the rectified combine step. The ten tiles cover every row, so the output
  array ends holding that function.
-/
import proofs.«122318_j56813827392143_2_alg».proof.Proof.Gen.KernelIdeal.Frame
import proofs.«122318_j56813827392143_2_alg».proof.Proof.KernelPayload
import Idealize.ShloMosaic.Lib.Pipeline.Value
import Idealize.ShloMosaic.Lib.ValueIdx

set_option maxRecDepth 16384

noncomputable section

namespace Cert.KernelIdeal.Tiles0

open Cert.KernelIdeal Cert.KernelIdeal.Gen Cert.KernelIdeal.Payload Cert.Sage
open Idealize.ShloMosaic Idealize.ShloMosaic.TcCoe Idealize.ShloMosaic.ValueIdx Idealize.SL.Sem
open Idealize.ShloMosaic.Pipeline (Dat Cfg Window)

-- the buffer contents when the launch is entered
variable (V : (c : Dev nD) → (b : Ref sig .tc) → Buf (Elt Ideal) ((c : Thread nD τ).loc b))

theorem zero_offset : (![0, 0] : Fin 2 → Nat) = fun _ => 0 := funext fun a => by fin_cases a <;> rfl

/-- The printed index maps, decided over the ten grid points: the two row operands' tile index is the output's; the
    weights and the bias row sit at block (0, 0); the output's tile row index is at most 9 and its column block is 0. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every one of the ten row tiles is some grid point's. -/
theorem index_onto : ∀ q0 : Fin 10, ∃ t : Fin cfg0.N, win0_5.index t = ![q0.val, 0] :=
  (by decide +kernel : ∀ q0 : Fin 10, ∃ t : Fin grid0.N, win0_5.index t = ![q0.val, 0])

/-- What point `t` writes back is tile `t` of the rectified combine step of the operand arrays as the launch finds them. -/
theorem flushed_eq (c : Dev nD) (t : Fin cfg0.N) :
    (dat0 V c).flushed 5 t = ((cfg0.win 5).blk t).view.read (Elt Ideal)
      (combineRelu (V c main_v26) (V c main_arg0) (V c main_arg2) (V c main_arg4) (V c main_v27)) := by
  show (cfg0.win 5).cut (grid0.coords t) ((dat0 V c).after 5 t) = _
  rw [after0_5]
  unfold out0_5
  rw [View.canon_unit_zero zero_offset]
  simp only [View.ld_unit_zero (S := S5000x128) zero_offset, View.ld_unit_zero (S := S128x128) zero_offset,
    View.ld_unit_zero (S := S1x128) zero_offset]
  obtain ⟨e0, e1, e2, e3, e4, e5, e6, e7, e8, e9, e10, e11⟩ := index_facts t
  funext j
  show k0_pay1 (F := Ideal) (iblk0 V c 0 t) (iblk0 V c 1 t) (iblk0 V c 2 t) (iblk0 V c 3 t) (iblk0 V c 4 t) j
      = combineRelu (V c main_v26) (V c main_arg0) (V c main_arg2) (V c main_arg4) (V c main_v27) (((cfg0.win 5).blk t).view.emb j)
  -- the output tile's place in the array keeps the column and moves whole rows
  have hcol : ∀ y : S5000x128.Idx, ((((cfg0.win 5).blk t).view.emb y) 1).val = (y 1).val := fun y => by
    show win0_5.index t (1 : Fin 2) * 128 + 1 * (y 1).val = (y 1).val
    omega
  have hrow : ∀ y y' : S5000x128.Idx, (y 0).val = (y' 0).val →
      ((((cfg0.win 5).blk t).view.emb y) 0).val = ((((cfg0.win 5).blk t).view.emb y') 0).val := fun y y' h => by
    show win0_5.index t (0 : Fin 2) * 5000 + 1 * (y 0).val = win0_5.index t (0 : Fin 2) * 5000 + 1 * (y' 0).val
    omega
  -- the two row operands' tiles sit at the output tile's rows
  have h0 : ∀ y : S5000x128.Idx, iblk0 V c 0 t y = V c main_v26 (((cfg0.win 5).blk t).view.emb y) := fun y => by
    show V c main_v26 (((cfg0.win 0).blk t).view.emb y) = V c main_v26 (((cfg0.win 5).blk t).view.emb y)
    have he : ((cfg0.win 0).blk t).view.emb y = ((cfg0.win 5).blk t).view.emb y := by
      funext a; apply Fin.ext
      match a with
      | ⟨0, _⟩ => show win0_0.index t (0 : Fin 2) * 5000 + 1 * (y 0).val = win0_5.index t (0 : Fin 2) * 5000 + 1 * (y 0).val; omega
      | ⟨1, _⟩ => show win0_0.index t (1 : Fin 2) * 128 + 1 * (y 1).val = win0_5.index t (1 : Fin 2) * 128 + 1 * (y 1).val; omega
    rw [he]
  have h1 : ∀ y : S5000x128.Idx, iblk0 V c 1 t y = V c main_arg0 (((cfg0.win 5).blk t).view.emb y) := fun y => by
    show V c main_arg0 (((cfg0.win 1).blk t).view.emb y) = V c main_arg0 (((cfg0.win 5).blk t).view.emb y)
    have he : ((cfg0.win 1).blk t).view.emb y = ((cfg0.win 5).blk t).view.emb y := by
      funext a; apply Fin.ext
      match a with
      | ⟨0, _⟩ => show win0_1.index t (0 : Fin 2) * 5000 + 1 * (y 0).val = win0_5.index t (0 : Fin 2) * 5000 + 1 * (y 0).val; omega
      | ⟨1, _⟩ => show win0_1.index t (1 : Fin 2) * 128 + 1 * (y 1).val = win0_5.index t (1 : Fin 2) * 128 + 1 * (y 1).val; omega
    rw [he]
  -- the weights and the bias row are staged whole
  have h2 : iblk0 V c 2 t = V c main_arg2 := funext fun y => by
    show V c main_arg2 (((cfg0.win 2).blk t).view.emb y) = V c main_arg2 y
    have he : ((cfg0.win 2).blk t).view.emb y = y := by
      funext a; apply Fin.ext
      match a with
      | ⟨0, _⟩ => show win0_2.index t (0 : Fin 2) * 128 + 1 * (y 0).val = (y 0).val; omega
      | ⟨1, _⟩ => show win0_2.index t (1 : Fin 2) * 128 + 1 * (y 1).val = (y 1).val; omega
    rw [he]
  have h3 : iblk0 V c 3 t = V c main_arg4 := funext fun y => by
    show V c main_arg4 (((cfg0.win 3).blk t).view.emb y) = V c main_arg4 y
    have he : ((cfg0.win 3).blk t).view.emb y = y := by
      funext a; apply Fin.ext
      match a with
      | ⟨0, _⟩ => show win0_3.index t (0 : Fin 2) * 128 + 1 * (y 0).val = (y 0).val; omega
      | ⟨1, _⟩ => show win0_3.index t (1 : Fin 2) * 128 + 1 * (y 1).val = (y 1).val; omega
    rw [he]
  have h4 : iblk0 V c 4 t = V c main_v27 := funext fun y => by
    show V c main_v27 (((cfg0.win 4).blk t).view.emb y) = V c main_v27 y
    have he : ((cfg0.win 4).blk t).view.emb y = y := by
      funext a; apply Fin.ext
      match a with
      | ⟨0, _⟩ => show win0_4.index t (0 : Fin 2) * 1 + 1 * (y 0).val = (y 0).val; omega
      | ⟨1, _⟩ => show win0_4.index t (1 : Fin 2) * 128 + 1 * (y 1).val = (y 1).val; omega
    rw [he]
  exact k0_tile (V c main_v26) (V c main_arg0) (V c main_arg2) (V c main_arg4) (V c main_v27)
    (iblk0 V c 0 t) (iblk0 V c 1 t) (iblk0 V c 2 t) (iblk0 V c 3 t) (iblk0 V c 4 t)
    (fun y => ((cfg0.win 5).blk t).view.emb y) hcol hrow h0 h1 h2 h3 h4 j

/-- An index of the output array is in point `t`'s tile iff each coordinate is in the tile's range on its axis. -/
theorem mem_tile (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v28).slice (win0_5.rect t)).set ↔ _
  rw [View.set_slice_whole, Rect.mem_set_unit]
  exact Iff.rfl

/-- Every index of the output array is in some written-back tile: row r is in tile r / 5000. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_tile]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the launch is the rectified combine step of the operand arrays as the launch finds them. -/
theorem final (c : Dev nD) : (dat0 V c).arrAt 5 cfg0.N
    = combineRelu (V c main_v26) (V c main_arg0) (V c main_arg2) (V c main_arg4) (V c main_v27) :=
  (dat0 V c).arrAt_eq_of_cover 5 _ (fun t _ => flushed_eq V c t) covered

end Cert.KernelIdeal.Tiles0

end
-- ==== Proof.KernelTiles1.lean ====
/-
  The second layer's launch: what its output array holds once all ten row tiles are written back.

  The launch walks ten grid points. At point t the pipeline stages rows 5000·t … 5000·t + 4999 of the mean-aggregated
  features and of the node features, the two weight matrices and the bias row whole, runs the body, and writes the
  body's [5000, 128] result back to the same rows of the output. Because a row of the combine step depends only on the
  same row of the two row operands, what point t writes back is exactly rows 5000·t … of ONE whole-array function of the
  five operand arrays as the launch finds them — the combine step. The ten tiles cover every row, so the output
  array ends holding that function.
-/
import proofs.«122318_j56813827392143_2_alg».proof.Proof.Gen.KernelIdeal.Frame
import proofs.«122318_j56813827392143_2_alg».proof.Proof.KernelPayload
import Idealize.ShloMosaic.Lib.Pipeline.Value
import Idealize.ShloMosaic.Lib.ValueIdx

set_option maxRecDepth 16384

noncomputable section

namespace Cert.KernelIdeal.Tiles1

open Cert.KernelIdeal Cert.KernelIdeal.Gen Cert.KernelIdeal.Payload Cert.Sage
open Idealize.ShloMosaic Idealize.ShloMosaic.TcCoe Idealize.ShloMosaic.ValueIdx Idealize.SL.Sem
open Idealize.ShloMosaic.Pipeline (Dat Cfg Window)

-- the buffer contents when the launch is entered
variable (V : (c : Dev nD) → (b : Ref sig .tc) → Buf (Elt Ideal) ((c : Thread nD τ).loc b))

theorem zero_offset : (![0, 0] : Fin 2 → Nat) = fun _ => 0 := funext fun a => by fin_cases a <;> rfl

/-- The printed index maps, decided over the ten grid points: the two row operands' tile index is the output's; the
    weights and the bias row sit at block (0, 0); the output's tile row index is at most 9 and its column block is 0. -/
theorem index_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every one of the ten row tiles is some grid point's. -/
theorem index_onto : ∀ q0 : Fin 10, ∃ t : Fin cfg1.N, win1_5.index t = ![q0.val, 0] :=
  (by decide +kernel : ∀ q0 : Fin 10, ∃ t : Fin grid1.N, win1_5.index t = ![q0.val, 0])

/-- What point `t` writes back is tile `t` of the combine step of the operand arrays as the launch finds them. -/
theorem flushed_eq (c : Dev nD) (t : Fin cfg1.N) :
    (dat1 V c).flushed 5 t = ((cfg1.win 5).blk t).view.read (Elt Ideal)
      (combine (V c main_v43) (V c main_v28) (V c main_arg5) (V c main_arg7) (V c main_v44)) := by
  show (cfg1.win 5).cut (grid1.coords t) ((dat1 V c).after 5 t) = _
  rw [after1_5]
  unfold out1_5
  rw [View.canon_unit_zero zero_offset]
  simp only [View.ld_unit_zero (S := S5000x128) zero_offset, View.ld_unit_zero (S := S128x128) zero_offset,
    View.ld_unit_zero (S := S1x128) zero_offset]
  obtain ⟨e0, e1, e2, e3, e4, e5, e6, e7, e8, e9, e10, e11⟩ := index_facts t
  funext j
  show k1_pay1 (F := Ideal) (iblk1 V c 0 t) (iblk1 V c 1 t) (iblk1 V c 2 t) (iblk1 V c 3 t) (iblk1 V c 4 t) j
      = combine (V c main_v43) (V c main_v28) (V c main_arg5) (V c main_arg7) (V c main_v44) (((cfg1.win 5).blk t).view.emb j)
  -- the output tile's place in the array keeps the column and moves whole rows
  have hcol : ∀ y : S5000x128.Idx, ((((cfg1.win 5).blk t).view.emb y) 1).val = (y 1).val := fun y => by
    show win1_5.index t (1 : Fin 2) * 128 + 1 * (y 1).val = (y 1).val
    omega
  have hrow : ∀ y y' : S5000x128.Idx, (y 0).val = (y' 0).val →
      ((((cfg1.win 5).blk t).view.emb y) 0).val = ((((cfg1.win 5).blk t).view.emb y') 0).val := fun y y' h => by
    show win1_5.index t (0 : Fin 2) * 5000 + 1 * (y 0).val = win1_5.index t (0 : Fin 2) * 5000 + 1 * (y' 0).val
    omega
  -- the two row operands' tiles sit at the output tile's rows
  have h0 : ∀ y : S5000x128.Idx, iblk1 V c 0 t y = V c main_v43 (((cfg1.win 5).blk t).view.emb y) := fun y => by
    show V c main_v43 (((cfg1.win 0).blk t).view.emb y) = V c main_v43 (((cfg1.win 5).blk t).view.emb y)
    have he : ((cfg1.win 0).blk t).view.emb y = ((cfg1.win 5).blk t).view.emb y := by
      funext a; apply Fin.ext
      match a with
      | ⟨0, _⟩ => show win1_0.index t (0 : Fin 2) * 5000 + 1 * (y 0).val = win1_5.index t (0 : Fin 2) * 5000 + 1 * (y 0).val; omega
      | ⟨1, _⟩ => show win1_0.index t (1 : Fin 2) * 128 + 1 * (y 1).val = win1_5.index t (1 : Fin 2) * 128 + 1 * (y 1).val; omega
    rw [he]
  have h1 : ∀ y : S5000x128.Idx, iblk1 V c 1 t y = V c main_v28 (((cfg1.win 5).blk t).view.emb y) := fun y => by
    show V c main_v28 (((cfg1.win 1).blk t).view.emb y) = V c main_v28 (((cfg1.win 5).blk t).view.emb y)
    have he : ((cfg1.win 1).blk t).view.emb y = ((cfg1.win 5).blk t).view.emb y := by
      funext a; apply Fin.ext
      match a with
      | ⟨0, _⟩ => show win1_1.index t (0 : Fin 2) * 5000 + 1 * (y 0).val = win1_5.index t (0 : Fin 2) * 5000 + 1 * (y 0).val; omega
      | ⟨1, _⟩ => show win1_1.index t (1 : Fin 2) * 128 + 1 * (y 1).val = win1_5.index t (1 : Fin 2) * 128 + 1 * (y 1).val; omega
    rw [he]
  -- the weights and the bias row are staged whole
  have h2 : iblk1 V c 2 t = V c main_arg5 := funext fun y => by
    show V c main_arg5 (((cfg1.win 2).blk t).view.emb y) = V c main_arg5 y
    have he : ((cfg1.win 2).blk t).view.emb y = y := by
      funext a; apply Fin.ext
      match a with
      | ⟨0, _⟩ => show win1_2.index t (0 : Fin 2) * 128 + 1 * (y 0).val = (y 0).val; omega
      | ⟨1, _⟩ => show win1_2.index t (1 : Fin 2) * 128 + 1 * (y 1).val = (y 1).val; omega
    rw [he]
  have h3 : iblk1 V c 3 t = V c main_arg7 := funext fun y => by
    show V c main_arg7 (((cfg1.win 3).blk t).view.emb y) = V c main_arg7 y
    have he : ((cfg1.win 3).blk t).view.emb y = y := by
      funext a; apply Fin.ext
      match a with
      | ⟨0, _⟩ => show win1_3.index t (0 : Fin 2) * 128 + 1 * (y 0).val = (y 0).val; omega
      | ⟨1, _⟩ => show win1_3.index t (1 : Fin 2) * 128 + 1 * (y 1).val = (y 1).val; omega
    rw [he]
  have h4 : iblk1 V c 4 t = V c main_v44 := funext fun y => by
    show V c main_v44 (((cfg1.win 4).blk t).view.emb y) = V c main_v44 y
    have he : ((cfg1.win 4).blk t).view.emb y = y := by
      funext a; apply Fin.ext
      match a with
      | ⟨0, _⟩ => show win1_4.index t (0 : Fin 2) * 1 + 1 * (y 0).val = (y 0).val; omega
      | ⟨1, _⟩ => show win1_4.index t (1 : Fin 2) * 128 + 1 * (y 1).val = (y 1).val; omega
    rw [he]
  exact k1_tile (V c main_v43) (V c main_v28) (V c main_arg5) (V c main_arg7) (V c main_v44)
    (iblk1 V c 0 t) (iblk1 V c 1 t) (iblk1 V c 2 t) (iblk1 V c 3 t) (iblk1 V c 4 t)
    (fun y => ((cfg1.win 5).blk t).view.emb y) hcol hrow h0 h1 h2 h3 h4 j

/-- An index of the output array is in point `t`'s tile iff each coordinate is in the tile's range on its axis. -/
theorem mem_tile (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v45).slice (win1_5.rect t)).set ↔ _
  rw [View.set_slice_whole, Rect.mem_set_unit]
  exact Iff.rfl

/-- Every index of the output array is in some written-back tile: row r is in tile r / 5000. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := index_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_tile]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the launch is the combine step of the operand arrays as the launch finds them. -/
theorem final (c : Dev nD) : (dat1 V c).arrAt 5 cfg1.N
    = combine (V c main_v43) (V c main_v28) (V c main_arg5) (V c main_arg7) (V c main_v44) :=
  (dat1 V c).arrAt_eq_of_cover 5 _ (fun t _ => flushed_eq V c t) covered

end Cert.KernelIdeal.Tiles1

end
-- ==== Proof.KernelValue.lean ====
/-
  The idealized kernel program's result, as a function of its arguments.

  The program's buffer contents are followed through its four segments. The first stretch of host operations leaves, in
  the buffers the first launch reads, the mean aggregation of the input features, the input features themselves, the
  first layer's weights, and the first bias as a row. The first launch then leaves the rectified combine step of those in
  its output buffer. The second stretch of host operations reads that buffer, and the edge endpoints and reciprocal
  degree the first stretch computed (no launch touches those), and leaves the mean aggregation of the first layer's
  output; the second launch leaves the combine step of that. Composed, the result buffer holds the two-layer network of
  the argument arrays.
-/
import proofs.«122318_j56813827392143_2_alg».proof.Proof.Gen.KernelIdeal.Frame
import proofs.«122318_j56813827392143_2_alg».proof.Proof.HostSpec
import proofs.«122318_j56813827392143_2_alg».proof.Proof.KernelTiles0
import proofs.«122318_j56813827392143_2_alg».proof.Proof.KernelTiles1
import Idealize.ShloMosaic.Lib.StableHlo.Run

set_option maxRecDepth 16384

noncomputable section

namespace Cert.KernelIdeal.ValueOut

open Cert.KernelIdeal Cert.KernelIdeal.Gen Cert.KernelIdeal.HostSpec Cert.Sage
open Idealize.ShloMosaic Idealize.ShloMosaic.TcCoe Idealize.ShloMosaic.StableHlo Idealize.SL.Sem

variable (m : (ℓ : Loc nD τ sig) → Buf (Elt Ideal) ℓ) (ρ : Dev nD → PrngReg)

/-! ## After the first stretch of host operations -/

/-- No host operation of the first stretch writes argument 0. -/
theorem W1_arg0 (c : Dev nD) : W1 m ρ c (Proc.devRef .tc main_arg0) = (m ((c : Thread nD τ).loc main_arg0)) := by
  show StableHlo.after hostOps0 (W0 m ρ c) (Proc.devRef .tc main_arg0) = _
  simp only [hostOps0]
  after_results_simp <;> rfl

/-- No host operation of the first stretch writes argument 2. -/
theorem W1_arg2 (c : Dev nD) : W1 m ρ c (Proc.devRef .tc main_arg2) = (m ((c : Thread nD τ).loc main_arg2)) := by
  show StableHlo.after hostOps0 (W0 m ρ c) (Proc.devRef .tc main_arg2) = _
  simp only [hostOps0]
  after_results_simp <;> rfl

/-- No host operation of the first stretch writes argument 4. -/
theorem W1_arg4 (c : Dev nD) : W1 m ρ c (Proc.devRef .tc main_arg4) = (m ((c : Thread nD τ).loc main_arg4)) := by
  show StableHlo.after hostOps0 (W0 m ρ c) (Proc.devRef .tc main_arg4) = _
  simp only [hostOps0]
  after_results_simp <;> rfl

/-- No host operation of the first stretch writes argument 5. -/
theorem W1_arg5 (c : Dev nD) : W1 m ρ c (Proc.devRef .tc main_arg5) = (m ((c : Thread nD τ).loc main_arg5)) := by
  show StableHlo.after hostOps0 (W0 m ρ c) (Proc.devRef .tc main_arg5) = _
  simp only [hostOps0]
  after_results_simp <;> rfl

/-- No host operation of the first stretch writes argument 6. -/
theorem W1_arg6 (c : Dev nD) : W1 m ρ c (Proc.devRef .tc main_arg6) = (m ((c : Thread nD τ).loc main_arg6)) := by
  show StableHlo.after hostOps0 (W0 m ρ c) (Proc.devRef .tc main_arg6) = _
  simp only [hostOps0]
  after_results_simp <;> rfl

/-- No host operation of the first stretch writes argument 7. -/
theorem W1_arg7 (c : Dev nD) : W1 m ρ c (Proc.devRef .tc main_arg7) = (m ((c : Thread nD τ).loc main_arg7)) := by
  show StableHlo.after hostOps0 (W0 m ρ c) (Proc.devRef .tc main_arg7) = _
  simp only [hostOps0]
  after_results_simp <;> rfl

/-- The source row of the edge list. -/
theorem W1_src (c : Dev nD) : W1 m ρ c (Proc.devRef .tc main_v1) = srcOf (F := Ideal) (m ((c : Thread nD τ).loc main_arg1)) := by
  show StableHlo.after hostOps0 (W0 m ρ c) (Proc.devRef .tc main_v1) = _
  simp only [hostOps0]
  after_results_simp <;> rfl

/-- The destination row of the edge list. -/
theorem W1_dst (c : Dev nD) : W1 m ρ c (Proc.devRef .tc main_v3) = dstOf (F := Ideal) (m ((c : Thread nD τ).loc main_arg1)) := by
  show StableHlo.after hostOps0 (W0 m ρ c) (Proc.devRef .tc main_v3) = _
  simp only [hostOps0]
  after_results_simp <;> rfl

/-- The reciprocal of the clamped in-degree. -/
theorem W1_recip (c : Dev nD) : W1 m ρ c (Proc.devRef .tc main_v11) = recipDegree (F := Ideal) (dstOf (F := Ideal) (m ((c : Thread nD τ).loc main_arg1))) := by
  show StableHlo.after hostOps0 (W0 m ρ c) (Proc.devRef .tc main_v11) = _
  simp only [hostOps0]
  after_results_simp <;> rfl

/-- The first launch's mean operand: the mean aggregation of the input features. -/
theorem W1_mean (c : Dev nD) : W1 m ρ c (Proc.devRef .tc main_v26) = meanOf (F := Ideal) (srcOf (F := Ideal) (m ((c : Thread nD τ).loc main_arg1))) (dstOf (F := Ideal) (m ((c : Thread nD τ).loc main_arg1))) (recipDegree (F := Ideal) (dstOf (F := Ideal) (m ((c : Thread nD τ).loc main_arg1)))) (m ((c : Thread nD τ).loc main_arg0)) := by
  show StableHlo.after hostOps0 (W0 m ρ c) (Proc.devRef .tc main_v26) = _
  simp only [hostOps0]
  after_results_simp <;> rfl

/-- The first launch's bias operand: the first bias as a row. -/
theorem W1_bias (c : Dev nD) : W1 m ρ c (Proc.devRef .tc main_v27) = biasRow (F := Ideal) (m ((c : Thread nD τ).loc main_arg3)) := by
  show StableHlo.after hostOps0 (W0 m ρ c) (Proc.devRef .tc main_v27) = _
  simp only [hostOps0]
  after_results_simp <;> rfl

/-! ## After the first launch -/

/-- The first launch's output buffer holds the first layer: the rectified combine step. -/
theorem W2_hidden (c : Dev nD) : W2 m ρ c (Proc.devRef .tc main_v28) = combineRelu (meanOf (F := Ideal) (srcOf (F := Ideal) (m ((c : Thread nD τ).loc main_arg1))) (dstOf (F := Ideal) (m ((c : Thread nD τ).loc main_arg1))) (recipDegree (F := Ideal) (dstOf (F := Ideal) (m ((c : Thread nD τ).loc main_arg1)))) (m ((c : Thread nD τ).loc main_arg0))) (m ((c : Thread nD τ).loc main_arg0)) (m ((c : Thread nD τ).loc main_arg2)) (m ((c : Thread nD τ).loc main_arg4)) (biasRow (F := Ideal) (m ((c : Thread nD τ).loc main_arg3))) :=
  (W2_arr m ρ c 5).trans ((Tiles0.final (V1 m ρ) c).trans (by
    show combineRelu (W1 m ρ c (Proc.devRef .tc main_v26)) (W1 m ρ c (Proc.devRef .tc main_arg0)) (W1 m ρ c (Proc.devRef .tc main_arg2))
        (W1 m ρ c (Proc.devRef .tc main_arg4)) (W1 m ρ c (Proc.devRef .tc main_v27)) = _
    rw [W1_mean, W1_arg0, W1_arg2, W1_arg4, W1_bias]))

/-- The launch leaves every buffer that is not one of its six arrays as it found it. -/
theorem W2_src (c : Dev nD) : W2 m ρ c (Proc.devRef .tc main_v1) = srcOf (F := Ideal) (m ((c : Thread nD τ).loc main_arg1)) :=
  (W2_of_ne m ρ c main_v1 (by decide)).trans (W1_src m ρ c)
theorem W2_dst (c : Dev nD) : W2 m ρ c (Proc.devRef .tc main_v3) = dstOf (F := Ideal) (m ((c : Thread nD τ).loc main_arg1)) :=
  (W2_of_ne m ρ c main_v3 (by decide)).trans (W1_dst m ρ c)
theorem W2_recip (c : Dev nD) : W2 m ρ c (Proc.devRef .tc main_v11) = recipDegree (F := Ideal) (dstOf (F := Ideal) (m ((c : Thread nD τ).loc main_arg1))) :=
  (W2_of_ne m ρ c main_v11 (by decide)).trans (W1_recip m ρ c)
theorem W2_arg5 (c : Dev nD) : W2 m ρ c (Proc.devRef .tc main_arg5) = (m ((c : Thread nD τ).loc main_arg5)) :=
  (W2_of_ne m ρ c main_arg5 (by decide)).trans (W1_arg5 m ρ c)
theorem W2_arg6 (c : Dev nD) : W2 m ρ c (Proc.devRef .tc main_arg6) = (m ((c : Thread nD τ).loc main_arg6)) :=
  (W2_of_ne m ρ c main_arg6 (by decide)).trans (W1_arg6 m ρ c)
theorem W2_arg7 (c : Dev nD) : W2 m ρ c (Proc.devRef .tc main_arg7) = (m ((c : Thread nD τ).loc main_arg7)) :=
  (W2_of_ne m ρ c main_arg7 (by decide)).trans (W1_arg7 m ρ c)

/-! ## After the second stretch of host operations -/

/-- The second launch's mean operand: the mean aggregation of the first layer's output, from the edge endpoints and the reciprocal degree already in their buffers. -/
theorem W3_mean (c : Dev nD) : W3 m ρ c (Proc.devRef .tc main_v43) = meanOf (F := Ideal) (W2 m ρ c (Proc.devRef .tc main_v1)) (W2 m ρ c (Proc.devRef .tc main_v3)) (W2 m ρ c (Proc.devRef .tc main_v11)) (W2 m ρ c (Proc.devRef .tc main_v28)) := by
  show StableHlo.after hostOps1 (W2 m ρ c) (Proc.devRef .tc main_v43) = _
  simp only [hostOps1]
  after_results_simp <;> rfl

/-- The second stretch does not write the first layer's output. -/
theorem W3_hidden (c : Dev nD) : W3 m ρ c (Proc.devRef .tc main_v28) = W2 m ρ c (Proc.devRef .tc main_v28) := by
  show StableHlo.after hostOps1 (W2 m ρ c) (Proc.devRef .tc main_v28) = _
  simp only [hostOps1]
  after_results_simp <;> rfl

/-- The second stretch does not write argument 5. -/
theorem W3_arg5 (c : Dev nD) : W3 m ρ c (Proc.devRef .tc main_arg5) = W2 m ρ c (Proc.devRef .tc main_arg5) := by
  show StableHlo.after hostOps1 (W2 m ρ c) (Proc.devRef .tc main_arg5) = _
  simp only [hostOps1]
  after_results_simp <;> rfl

/-- The second stretch does not write argument 7. -/
theorem W3_arg7 (c : Dev nD) : W3 m ρ c (Proc.devRef .tc main_arg7) = W2 m ρ c (Proc.devRef .tc main_arg7) := by
  show StableHlo.after hostOps1 (W2 m ρ c) (Proc.devRef .tc main_arg7) = _
  simp only [hostOps1]
  after_results_simp <;> rfl

/-- The second launch's bias operand: the second bias as a row. -/
theorem W3_bias (c : Dev nD) : W3 m ρ c (Proc.devRef .tc main_v44) = biasRow (F := Ideal) (W2 m ρ c (Proc.devRef .tc main_arg6)) := by
  show StableHlo.after hostOps1 (W2 m ρ c) (Proc.devRef .tc main_v44) = _
  simp only [hostOps1]
  after_results_simp <;> rfl

/-! ## The result -/

/-- After the second launch the result buffer holds the two-layer network of the argument arrays. -/
theorem W4_result (c : Dev nD) : W4 m ρ c (Proc.devRef .tc main_v45)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 5).trans ((Tiles1.final (V3 m ρ) c).trans (by
    show combine (W3 m ρ c (Proc.devRef .tc main_v43)) (W3 m ρ c (Proc.devRef .tc main_v28)) (W3 m ρ c (Proc.devRef .tc main_arg5))
        (W3 m ρ c (Proc.devRef .tc main_arg7)) (W3 m ρ c (Proc.devRef .tc main_v44)) = _
    rw [W3_mean, W3_hidden, W3_arg5, W3_arg7, W3_bias, W2_src, W2_dst, W2_recip, W2_hidden, W2_arg5, W2_arg6, W2_arg7]
    rfl))

end Cert.KernelIdeal.ValueOut

end
-- ==== Proof.RefValue.lean ====
/-
  The idealized reference's result is the same two-layer network of its arguments.

  The reference computes, per layer, the neighbour sum divided by the broadcast clamped degree, two whole-array
  matrix products, and the sum (mean·W_l + b) + x·W_r; the first layer is rectified. Three things identify it with the
  kernel program's arrangement. Its edge endpoints, index columns, neighbour sums and clamped degree are the very same
  host operations, so they are the same functions. Dividing the neighbour sum by the broadcast clamped degree is scaling
  it by the broadcast reciprocal, because the clamped degree is never zero. And, entry by entry, a whole-array matrix
  product is the sum over the contracted axis, the bias broadcast reads the bias at the column, and
  (A + b) + B = (A + B) + b in the extended reals, where addition is commutative and associative without exception.
-/
import proofs.«122318_j56813827392143_2_alg».proof.Proof.Gen.ReferenceIdeal.Read
import proofs.«122318_j56813827392143_2_alg».proof.Proof.HostSpec
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read
open Cert.KernelIdeal.HostSpec Cert.Sage
open Idealize.ShloMosaic Idealize.ShloMosaic.ValueIdx

/-! ## One layer, entry by entry -/

/-- The host's matrix product at entry (p, q): Σ_k l[p, k] · r[k, q]. -/
theorem dot_apply (l : FVec Ideal S50000x128 .f32) (r : FVec Ideal S128x128 .f32) (p : Fin 50000) (q : Fin 128) :
    Host.dotGeneral dot_S50000x128_S128x128_S50000x128_1_0_0_1_n_n none l r (ix2 p q) = ∑ k : Fin 128, l (ix2 p k) * r (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 p q) ((ValueIdx.contrEquiv1 dot_S50000x128_S128x128_S50000x128_1_0_0_1_n_n 128 rfl rfl).symm k) = ix2 p k := funext fun a => Fin.ext (by
    match a with
    | ⟨0, _⟩ => exact lhs_main_v23_0 _ _
    | ⟨1, _⟩ => exact (lhs_main_v23_1 _ _).trans hk)
  have er : dot_S50000x128_S128x128_S50000x128_1_0_0_1_n_n.rhsIdx (ix2 p q) ((ValueIdx.contrEquiv1 dot_S50000x128_S128x128_S50000x128_1_0_0_1_n_n 128 rfl rfl).symm k) = ix2 k q := funext fun a => Fin.ext (by
    match a with
    | ⟨0, _⟩ => exact (rhs_main_v23_0 _ _).trans hk
    | ⟨1, _⟩ => exact rhs_main_v23_1 _ _)
  rw [el, er]

/-- The bias broadcast [128] → [1, 128] → [50000, 128] at (p, q) is the bias at q. -/
theorem bias_apply (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) := by
  rw [broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact broadcastInDim_apply _ bcast_S128_S1x128_1 b (ix2 (0 : Fin 1) q) (ix1 q) (fun a => match a with
    | ⟨0, _⟩ => by show q.val = if (128 : Nat) = 1 then 0 else q.val; rw [if_neg (by decide)])

/-- The reference's layer, (mean·W_l + b) + x·W_r, is the combine step (mean·W_l + x·W_r) + b. -/
theorem layer_eq (mean x : FVec Ideal S50000x128 .f32) (wl wr : FVec Ideal S128x128 .f32) (b : FVec Ideal S128 .f32) :
    addf (addf (Host.dotGeneral dot_S50000x128_S128x128_S50000x128_1_0_0_1_n_n none mean wl)
        (broadcastInDim S50000x128 ![0, 1] bcast_S1x128_S50000x128_0_1 (broadcastInDim S1x128 ![1] bcast_S128_S1x128_1 b)))
      (Host.dotGeneral dot_S50000x128_S128x128_S50000x128_1_0_0_1_n_n none x wr)
      = combine mean x wl wr (biasRow b) := by
  funext i
  obtain ⟨p, q, rfl⟩ : ∃ (p : Fin 50000) (q : Fin 128), i = ix2 p q := ⟨i 0, i 1, eq_ix2 i⟩
  rw [addf_apply, addf_apply, dot_apply, dot_apply, bias_apply]
  show _ = combineAt mean x wl wr (biasRow b) p q
  unfold combineAt
  rw [biasRow_apply]
  exact add_right_comm _ _ _

/-! ## The reference's stages -/

/-- The first layer's mean: the neighbour sum over the broadcast clamped degree is the kernel program's scaled mean. -/
theorem mean1_eq (x0 : FVec Ideal S50000x128 .f32) (x1 : (⟨S2x640000, .i32⟩ : BufTy).Contents (Elt Ideal)) :
    val_main_v22 (F := Ideal) x0 x1 = meanOf (srcOf x1) (dstOf x1) (recipDegree (dstOf x1)) x0 :=
  (show val_main_v22 (F := Ideal) x0 x1
      = Host.divf (neighbourSum (srcOf x1) (dstOf x1) x0) (perRow (degreeMax1 (dstOf x1))) from rfl).trans
    (meanOf_eq_div _ _ _).symm

/-- The first layer before the rectifier. -/
theorem layer1_eq (x0 : FVec Ideal S50000x128 .f32) (x1 : (⟨S2x640000, .i32⟩ : BufTy).Contents (Elt Ideal)) (x2 : FVec Ideal S128x128 .f32) (x3 : FVec Ideal S128 .f32) (x4 : FVec Ideal S128x128 .f32) :
    val_main_v28 (F := Ideal) x0 x1 x2 x3 x4 = combine (val_main_v22 (F := Ideal) x0 x1) x0 x2 x4 (biasRow x3) :=
  layer_eq (val_main_v22 (F := Ideal) x0 x1) x0 x2 x4 x3

/-- The first layer. -/
theorem hidden_eq (x0 : FVec Ideal S50000x128 .f32) (x1 : (⟨S2x640000, .i32⟩ : BufTy).Contents (Elt Ideal)) (x2 : FVec Ideal S128x128 .f32) (x3 : FVec Ideal S128 .f32) (x4 : FVec Ideal S128x128 .f32) :
    val_main_v29 (F := Ideal) x0 x1 x2 x3 x4 = combineRelu (val_main_v22 (F := Ideal) x0 x1) x0 x2 x4 (biasRow x3) := by
  funext i
  rw [val_main_v29_apply, val_main_call0_v0_apply, val_main_call0_cst_apply, layer1_eq]
  simp only [Ideal.maximumf_def, Ideal.ofBits_def, Ideal.ofBits_zero_f32]
  rfl

/-- The second layer's mean, of the first layer's output. -/
theorem mean2_eq (x0 : FVec Ideal S50000x128 .f32) (x1 : (⟨S2x640000, .i32⟩ : BufTy).Contents (Elt Ideal)) (x2 : FVec Ideal S128x128 .f32) (x3 : FVec Ideal S128 .f32) (x4 : FVec Ideal S128x128 .f32) :
    val_main_v48 (F := Ideal) x0 x1 x2 x3 x4 = meanOf (srcOf x1) (dstOf x1) (recipDegree (dstOf x1)) (val_main_v29 (F := Ideal) x0 x1 x2 x3 x4) :=
  (show val_main_v48 (F := Ideal) x0 x1 x2 x3 x4
      = Host.divf (neighbourSum (srcOf x1) (dstOf x1) (val_main_v29 (F := Ideal) x0 x1 x2 x3 x4)) (perRow (degreeMax1 (dstOf x1))) from rfl).trans
    (meanOf_eq_div _ _ _).symm

/-- The second layer. -/
theorem layer2_eq (x0 : FVec Ideal S50000x128 .f32) (x1 : (⟨S2x640000, .i32⟩ : BufTy).Contents (Elt Ideal)) (x2 : FVec Ideal S128x128 .f32) (x3 : FVec Ideal S128 .f32) (x4 : FVec Ideal S128x128 .f32) (x5 : FVec Ideal S128x128 .f32) (x6 : FVec Ideal S128 .f32) (x7 : FVec Ideal S128x128 .f32) :
    val_main_v54 (F := Ideal) x0 x1 x2 x3 x4 x5 x6 x7
      = combine (val_main_v48 (F := Ideal) x0 x1 x2 x3 x4) (val_main_v29 (F := Ideal) x0 x1 x2 x3 x4) x5 x7 (biasRow x6) :=
  layer_eq (val_main_v48 (F := Ideal) x0 x1 x2 x3 x4) (val_main_v29 (F := Ideal) x0 x1 x2 x3 x4) x5 x7 x6

/-- THE REFERENCE IS THE NETWORK: its result, as a function of its arguments, is the kernel program's. -/
theorem result_eq (x0 : FVec Ideal S50000x128 .f32) (x1 : (⟨S2x640000, .i32⟩ : BufTy).Contents (Elt Ideal)) (x2 : FVec Ideal S128x128 .f32) (x3 : FVec Ideal S128 .f32) (x4 : FVec Ideal S128x128 .f32) (x5 : FVec Ideal S128x128 .f32) (x6 : FVec Ideal S128 .f32) (x7 : FVec Ideal S128x128 .f32) :
    val_main_v54 (F := Ideal) x0 x1 x2 x3 x4 x5 x6 x7 = network x0 x1 x2 x3 x4 x5 x6 x7 := by
  rw [layer2_eq, mean2_eq, hidden_eq, mean1_eq]
  rfl

end Cert.ReferenceIdeal.RefValue

end
-- ==== Proof.lean ====
/-
  A two-layer GraphSAGE network on 50000 nodes and 640000 edges with 128 features: the tiled kernel program against the
  whole-array reference, equal on the extended reals.

  Per layer, with deg the in-degree of each node and Σ the sum over a node's in-edges of the source's features:

    kernel program   mean = Σ · (1 / max(deg, 1)),   out = (mean·W_l + x·W_r) + b     ten row tiles of 5000 nodes each
    reference        mean = Σ / max(deg, 1),         out = (mean·W_l + b) + x·W_r     whole arrays

  and the first layer's output is rectified in both. The edge handling (the endpoint rows, the wrap of a negative source
  index, the gather, the scatter-add, the clamped degree) is the same sequence of host operations in the two programs,
  so it is one function of the same arguments and is never opened. What joins the two sides is

    * a · (1 / c) = a / c for every extended real a when c ≠ 0, and max(deg, 1) ≥ 1 is never 0 — whatever deg is, so
      the scatter-add is not read and the inputs' finiteness is not used;
    * a matrix product into a zero accumulator, tile by tile, and a whole-array matrix product are entry by entry the
      same sum over the contracted axis, and a row of the result depends only on the same row of the row operands, so
      the ten written-back tiles are the rows of one whole-array function and together cover the array;
    * (A + b) + B = (A + B) + b: addition on the extended reals is commutative and associative without exception;
    * narrowing to bf16 and widening back is the identity on the extended reals.

  The three frame claims are the generated frames (the reference's is its generated run with the result dropped), and the
  idealization rewrote no operation, so its claim is trivial.
-/
import proofs.«122318_j56813827392143_2_alg».proof.Defs
import proofs.«122318_j56813827392143_2_alg».proof.Proof.Gen.Kernel
import proofs.«122318_j56813827392143_2_alg».proof.Proof.Gen.Kernel.Frame
import proofs.«122318_j56813827392143_2_alg».proof.Proof.Gen.KernelIdeal
import proofs.«122318_j56813827392143_2_alg».proof.Proof.Gen.KernelIdeal.Frame
import proofs.«122318_j56813827392143_2_alg».proof.Proof.Gen.ReferenceIdeal
import proofs.«122318_j56813827392143_2_alg».proof.Proof.Gen.ReferenceIdeal.Run
import proofs.«122318_j56813827392143_2_alg».proof.Proof.Gen.ReferenceIdeal.Read
import proofs.«122318_j56813827392143_2_alg».proof.Proof.Gen.Pre_finite_inputs
import proofs.«122318_j56813827392143_2_alg».proof.Proof.KernelRun
import proofs.«122318_j56813827392143_2_alg».proof.Proof.KernelValue
import proofs.«122318_j56813827392143_2_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- And the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the two-layer network of the arguments
    in their result buffers: the kernel program by its four segments read in turn, the reference by its run and the
    identification of its stages. -/
theorem algebraic : Cert.algebraic_KernelIdeal_ReferenceIdeal := by
  intro m ρ m' ρ' _ hagree
  refine ⟨fun c => Cert.KernelIdeal.HostSpec.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.ValueOut.W4_result m ρ c), (h c).2⟩)
      (Cert.KernelIdeal.RunValue.run_out m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v54_eq, Cert.ReferenceIdeal.RefValue.result_eq]
    obtain ⟨a0, a1, a2, a3, a4, a5, a6, a7⟩ := hagree c
    rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
